-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x5632 : S_.BroadcastsInDim S8x2048x5632 (![] : Fin 0 → Fin S8x2048x5632.rank)
  reducesTo_S8x2048x5632_S_d0_1_2 : S8x2048x5632.ReducesTo [0, 1, 2] S_
  bcast_S_S8x5632x2048 : S_.BroadcastsInDim S8x5632x2048 (![] : Fin 0 → Fin S8x5632x2048.rank)
  reducesTo_S8x5632x2048_S_d0_1_2 : S8x5632x2048.ReducesTo [0, 1, 2] S_

variable [Facts]

def fn_part1 {F : FTy → Type} [FloatOps F] (main_v13 : IVec S_ 1) (main_v16 : IVec S8x2048x5632 1) : IVec S_ 1 :=
  let main_c_5 : IVec S_ 1 := constantI S_ 1 1#1
  let main_v17 : IVec S_ 1 := (fun x v => Host.reduce IntOp.andi x v reducesTo_S8x2048x5632_S_d0_1_2 h_S_) main_v16 main_c_5
  let main_v18 : IVec S_ 1 := andi main_v13 main_v17
  main_v18

def fn {F : FTy → Type} [FloatOps F] (main_arg0 : FVec F S8x2048x2048 .f32) (main_arg1 : FVec F S8x2048x5632 .f32) (main_arg2 : FVec F S8x5632x2048 .f32) (main_arg3 : FVec F S8x2048x5632 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x5632 .f32 := Host.absf main_arg1
  let main_cst_0 : FVec F S_ .f32 := constant S_ .f32 0x7F800000#32
  let main_v5 : FVec F S8x2048x5632 .f32 := broadcastInDim S8x2048x5632 ![] bcast_S_S8x2048x5632 main_cst_0
  let main_v6 : IVec S8x2048x5632 1 := cmpf .olt main_v4 main_v5
  let main_c_1 : IVec S_ 1 := constantI S_ 1 1#1
  let main_v7 : IVec S_ 1 := (fun x v => Host.reduce IntOp.andi x v reducesTo_S8x2048x5632_S_d0_1_2 h_S_) main_v6 main_c_1
  let main_v8 : IVec S_ 1 := andi main_v3 main_v7
  let main_v9 : FVec F S8x5632x2048 .f32 := Host.absf main_arg2
  let main_cst_2 : FVec F S_ .f32 := constant S_ .f32 0x7F800000#32
  let main_v10 : FVec F S8x5632x2048 .f32 := broadcastInDim S8x5632x2048 ![] bcast_S_S8x5632x2048 main_cst_2
  let main_v11 : IVec S8x5632x2048 1 := cmpf .olt main_v9 main_v10
  let main_c_3 : IVec S_ 1 := constantI S_ 1 1#1
  let main_v12 : IVec S_ 1 := (fun x v => Host.reduce IntOp.andi x v reducesTo_S8x5632x2048_S_d0_1_2 h_S_) main_v11 main_c_3
  let main_v13 : IVec S_ 1 := andi main_v8 main_v12
  let main_v14 : FVec F S8x2048x5632 .f32 := Host.absf main_arg3
  let main_cst_4 : FVec F S_ .f32 := constant S_ .f32 0x7F800000#32
  let main_v15 : FVec F S8x2048x5632 .f32 := broadcastInDim S8x2048x5632 ![] bcast_S_S8x2048x5632 main_cst_4
  let main_v16 : IVec S8x2048x5632 1 := cmpf .olt main_v14 main_v15
  fn_part1 (F := F) main_v13 main_v16
-- ==== Kernel.lean ====
abbrev S8x2048x2048 : Shape := ⟨3, ![8, 2048, 2048]⟩
abbrev S8x2048x5632 : Shape := ⟨3, ![8, 2048, 5632]⟩
abbrev S8x5632x2048 : Shape := ⟨3, ![8, 5632, 2048]⟩
abbrev S1x1024x2048 : Shape := ⟨3, ![1, 1024, 2048]⟩
abbrev S1x2048x256 : Shape := ⟨3, ![1, 2048, 256]⟩
abbrev S1x256x2048 : Shape := ⟨3, ![1, 256, 2048]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 5
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S8x2048x5632, .f32⟩
  | .hbm, ⟨2, _⟩ => ⟨S8x5632x2048, .f32⟩
  | .hbm, ⟨3, _⟩ => ⟨S8x2048x5632, .f32⟩
  | .hbm, ⟨4, _⟩ => ⟨S8x2048x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1024x2048, .f32⟩
  | .local _ .vmem, ⟨9, _⟩ => ⟨S1x1024x2048, .f32⟩
  | .local _ .vmem, ⟨10, _⟩ => ⟨S1024x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 22], ![false, false, false]⟩

def k0_cond2 (i : grid0.Coords) : BitVec 1 :=
  let arg2 : BitVec 32 := BitVec.ofNat 32 (i 2).val
  let c21_i32 : BitVec 32 := 21#32
  let v27 : BitVec 1 := Scalar.cmpi .eq arg2 c21_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S1024x2048_S1x1024x2048 : S1024x2048.ShapeCasts S1x1024x2048
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x5632.size a
  hwx0_1 : ∀ i : grid0.Coords, EltTy.bits .f32 = 32 ∨ (Rect.block (s := S8x2048x5632) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x5632.size a
  hwx0_2 : ∀ i : grid0.Coords, EltTy.bits .f32 = 32 ∨ (Rect.block (s := S8x2048x5632) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x5632x2048.size a
  hwx0_3 : ∀ i : grid0.Coords, EltTy.bits .f32 = 32 ∨ (Rect.block (s := S8x5632x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S8x2048x2048.size a
  hwx0_4 : ∀ i : grid0.Coords, EltTy.bits .f32 = 32 ∨ (Rect.block (s := S8x2048x2048) S1x1024x2048.size (cc0_transform_4 i) (hinb0_4 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x2048 : Shape := ⟨3, ![8, 2048, 2048]⟩
abbrev S8x2048x5632 : Shape := ⟨3, ![8, 2048, 5632]⟩
abbrev S8x5632x2048 : Shape := ⟨3, ![8, 5632, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x5632, .f32⟩
  | .hbm, ⟨2, _⟩ => ⟨S8x5632x2048, .f32⟩
  | .hbm, ⟨3, _⟩ => ⟨S8x2048x5632, .f32⟩
  | .hbm, ⟨4, _⟩ => ⟨S8x2048x5632, .f32⟩
  | .hbm, ⟨5, _⟩ => ⟨S8x2048x5632, .f32⟩
  | .hbm, ⟨6, _⟩ => ⟨S8x2048x5632, .f32⟩
  | .hbm, ⟨7, _⟩ => ⟨S8x2048x5632, .f32⟩
  | .hbm, ⟨8, _⟩ => ⟨S_, .f32⟩
  | .hbm, ⟨9, _⟩ => ⟨S8x2048x5632, .f32⟩
  | .hbm, ⟨10, _⟩ => ⟨S8x2048x5632, .f32⟩
  | .hbm, ⟨11, _⟩ => ⟨S_, .f32⟩
  | .hbm, ⟨12, _⟩ => ⟨S8x2048x5632, .f32⟩
  | .hbm, ⟨13, _⟩ => ⟨S8x2048x5632, .f32⟩
  | .hbm, ⟨14, _⟩ => ⟨S8x2048x5632, .f32⟩
  | .hbm, ⟨15, _⟩ => ⟨S8x2048x5632, .f32⟩
  | .hbm, ⟨16, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x2048x5632 : S_.BroadcastsInDim S8x2048x5632 (![] : Fin 0 → Fin S8x2048x5632.rank)
  dot_S8x2048x2048_S8x2048x5632_S8x2048x5632_2_1_1_2_0_0_wf : DotDims.WF S8x2048x2048 S8x2048x5632 S8x2048x5632 [2] [1] [1] [2] [0] [0]
  dot_S8x2048x5632_S8x5632x2048_S8x2048x2048_2_1_1_2_0_0_wf : DotDims.WF S8x2048x5632 S8x5632x2048 S8x2048x2048 [2] [1] [1] [2] [0] [0]

variable [Facts₀]

def dot_S8x2048x2048_S8x2048x5632_S8x2048x5632_2_1_1_2_0_0 : DotDims S8x2048x2048 S8x2048x5632 S8x2048x5632 where
  lhsContracting := [2]
  rhsContracting := [1]
  lhsNonContracting := [1]
  rhsNonContracting := [2]
  lhsBatch := [0]
  rhsBatch := [0]
  wf := dot_S8x2048x2048_S8x2048x5632_S8x2048x5632_2_1_1_2_0_0_wf
def dot_S8x2048x5632_S8x5632x2048_S8x2048x2048_2_1_1_2_0_0 : DotDims S8x2048x5632 S8x5632x2048 S8x2048x2048 where
  lhsContracting := [2]
  rhsContracting := [1]
  lhsNonContracting := [1]
  rhsNonContracting := [2]
  lhsBatch := [0]
  rhsBatch := [0]
  wf := dot_S8x2048x5632_S8x5632x2048_S8x2048x2048_2_1_1_2_0_0_wf

class Facts : Prop extends Facts₀ where

variable [Facts]
-- ==== Proof.Spec.lean ====
/-
  The specification. A gated feed-forward block over 8 groups of 2048 tokens, model width 2048, hidden width 5632:

    pre w (g, t, h)  = Σ_d x[g, t, d] · w[g, d, h]                       (a hidden pre-activation)
    gate (g, t, h)   = (pre w1 · logistic (pre w1)) · pre w3             (the SiLU gate times the linear branch)
    G (g, t, o)      = Σ_h gate (g, t, h) · w2[g, h, o]                  (the projection back to model width)

  all on the extended reals. The hidden axis 5632 = 22 · 256 is a sum of 22 tiles of 256; a sum over the
  whole axis is the sum of the tile sums in any commutative monoid (no finiteness is needed: only the
  commutativity and associativity of addition are used).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The activations' shape, and the result's: [group, token, model]. -/
abbrev SX : Shape := ⟨3, ![8, 2048, 2048]⟩
/-- The shape of the two up-projections: [group, model, hidden]. -/
abbrev SUp : Shape := ⟨3, ![8, 2048, 5632]⟩
/-- The shape of the down-projection: [group, hidden, model]. -/
abbrev SDown : Shape := ⟨3, ![8, 5632, 2048]⟩

/-- Hidden unit `k` of hidden tile `j`: the hidden axis is 22 tiles of 256. -/
def hid (j : Fin 22) (k : Fin 256) : Fin 5632 :=
  ⟨256 * j.val + k.val, by have := j.isLt; have := k.isLt; omega⟩

@[simp] theorem hid_val (j : Fin 22) (k : Fin 256) : (hid j k).val = 256 * j.val + k.val := rfl

/-- Token `r` of token half `hf`: a group's 2048 tokens are two halves of 1024. -/
def tok (hf : Fin 2) (r : Fin 1024) : Fin 2048 :=
  ⟨1024 * hf.val + r.val, by have := hf.isLt; have := r.isLt; omega⟩

@[simp] theorem tok_val (hf : Fin 2) (r : Fin 1024) : (tok hf r).val = 1024 * hf.val + r.val := rfl

/-- A sum over the hidden axis is the sum over the tiles of the sums inside each tile. -/
theorem sum_tiles {M : Type*} [AddCommMonoid M] (f : Fin 5632 → M) :
    ∑ h, f h = ∑ j : Fin 22, ∑ k : Fin 256, f (hid j k) := by
  rw [← Equiv.sum_comp (finProdFinEquiv : Fin 22 × Fin 256 ≃ Fin 5632) f, Fintype.sum_prod_type]
  refine Finset.sum_congr rfl fun j _ => Finset.sum_congr rfl fun k _ => congrArg f (Fin.ext ?_)
  show k.val + 256 * j.val = 256 * j.val + k.val
  omega

/-- A hidden pre-activation: token `t` of group `g` against column `h` of the group's up-projection `w`. -/
def pre (x : FVec Ideal SX .f32) (w : FVec Ideal SUp .f32) (g : Fin 8) (t : Fin 2048) (h : Fin 5632) : EReal :=
  ∑ d : Fin 2048, x (ix3 g t d) * w (ix3 g d h)

/-- The gated hidden activation: SiLU of the first branch, times the second branch. -/
def gate (x : FVec Ideal SX .f32) (w1 w3 : FVec Ideal SUp .f32) (g : Fin 8) (t : Fin 2048) (h : Fin 5632) : EReal :=
  (pre x w1 g t h * Ideal.logistic (pre x w1 g t h)) * pre x w3 g t h

/-- The block's result, index by index. -/
def G (x : FVec Ideal SX .f32) (w1 : FVec Ideal SUp .f32) (w2 : FVec Ideal SDown .f32) (w3 : FVec Ideal SUp .f32) :
    FVec Ideal SX .f32 :=
  fun i => ∑ h : Fin 5632, gate x w1 w3 (i 0) (i 1) h * w2 (ix3 (i 0) h (i 2))

/-- One hidden tile's contribution to the result at (g, t, o). -/
def tile (x : FVec Ideal SX .f32) (w1 : FVec Ideal SUp .f32) (w2 : FVec Ideal SDown .f32) (w3 : FVec Ideal SUp .f32)
    (g : Fin 8) (t o : Fin 2048) (j : Fin 22) : EReal :=
  ∑ k : Fin 256, gate x w1 w3 g t (hid j k) * w2 (ix3 g (hid j k) o)

/-- The result is the sum of the 22 tiles' contributions. -/
theorem G_eq_tiles (x : FVec Ideal SX .f32) (w1 : FVec Ideal SUp .f32) (w2 : FVec Ideal SDown .f32)
    (w3 : FVec Ideal SUp .f32) (i : SX.Idx) :
    G x w1 w2 w3 i = ∑ j : Fin 22, tile x w1 w2 w3 (i 0) (i 1) (i 2) j :=
  sum_tiles _

end Cert.Spec

end
-- ==== Proof.Pieces.lean ====
/-
  What one grid point's body leaves behind, as values. The body keeps a running [1024, 2048] accumulator in a
  scratch buffer that survives from point to point. With `step x x1 x2 x3 acc` the accumulator plus this hidden
  tile's contribution (the generated payload `k0_pay2`), `zero` the all-zero block (`k0_pay1`) and `emit` the
  reshape to [1, 1024, 2048] (`k0_pay3`):

    at the first hidden tile   the scratch ends at  step … zero      (it is cleared, read back, and added to),
    at a middle hidden tile    the scratch ends at  step … acc       (acc: what the point before left),
    at the last hidden tile    the scratch ends at  step … acc,  and the output block at  emit (step … acc).

  Each is the one covering store of the case, whose loads read whole buffers.
-/
import proofs.«165346_j13709535609205_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle hidden tile: the scratch, found holding `acc`, ends at `acc` plus the tile's contribution. -/
theorem scratch_mid (c : Dev nD) (i : grid0.Coords) (a3 : Memref sig .tc .vmem S1x1024x2048 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x2048 .f32) (h6 : a6.IsWhole) (a7 : Memref sig .tc .vmem S1x1024x2048 .f32) (h7 : a7.IsWhole) (a8 : Memref sig .tc .vmem S1024x2048 .f32) (h8 : a8.IsWhole) (hc0 : ¬cond0_0 i) (hc1 : ¬cond0_1 i)
    (x0 : Vec F S1x1024x2048 .f32) (x1 : Vec F S1x2048x256 .f32) (x2 : Vec F S1x2048x256 .f32) (x3 : Vec F S1x256x2048 .f32) (xs0 : Vec F S1024x2048 .f32) :
    sout0_B_0 c i a3 h3 a4 h4 a5 h5 a6 h6 a7 h7 a8 h8 hc0 hc1 x0 x1 x2 x3 xs0 = k0_pay2 x0 x1 x2 x3 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero (S := S1024x2048) hz2]
  simp only [View.readAt_eq_ld, h3.read_unread, h4.read_unread, h5.read_unread, h6.read_unread, h8.read_unread,
    View.ld_unit_zero (S := S1x1024x2048) hz3, View.ld_unit_zero (S := S1x2048x256) hz3,
    View.ld_unit_zero (S := S1x256x2048) hz3, View.ld_unit_zero (S := S1024x2048) hz2]

/-- The last hidden tile leaves the scratch as a middle one does. -/
theorem scratch_last (c : Dev nD) (i : grid0.Coords) (a3 : Memref sig .tc .vmem S1x1024x2048 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x2048 .f32) (h6 : a6.IsWhole) (a7 : Memref sig .tc .vmem S1x1024x2048 .f32) (h7 : a7.IsWhole) (a8 : Memref sig .tc .vmem S1024x2048 .f32) (h8 : a8.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) :
    sout0_C_0 c i a3 h3 a4 h4 a5 h5 a6 h6 a7 h7 a8 h8 hc0 hc1 x0 x1 x2 x3 xs0 = k0_pay2 x0 x1 x2 x3 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero (S := S1024x2048) hz2]
  simp only [View.readAt_eq_ld, h3.read_unread, h4.read_unread, h5.read_unread, h6.read_unread, h8.read_unread,
    View.ld_unit_zero (S := S1x1024x2048) hz3, View.ld_unit_zero (S := S1x2048x256) hz3,
    View.ld_unit_zero (S := S1x256x2048) hz3, View.ld_unit_zero (S := S1024x2048) hz2]

/-- The first hidden tile: the scratch is cleared, read back and added to — whatever it held before. -/
theorem scratch_first (c : Dev nD) (i : grid0.Coords) (a3 : Memref sig .tc .vmem S1x1024x2048 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x2048 .f32) (h6 : a6.IsWhole) (a7 : Memref sig .tc .vmem S1x1024x2048 .f32) (h7 : a7.IsWhole) (a8 : Memref sig .tc .vmem S1024x2048 .f32) (h8 : a8.IsWhole) (hc0 : cond0_0 i) (hc1 : ¬cond0_1 i)
    (x0 : Vec F S1x1024x2048 .f32) (x1 : Vec F S1x2048x256 .f32) (x2 : Vec F S1x2048x256 .f32) (x3 : Vec F S1x256x2048 .f32) :
    sout0_A_0 c i a3 h3 a4 h4 a5 h5 a6 h6 a7 h7 a8 h8 hc0 hc1 x0 x1 x2 x3 = k0_pay2 x0 x1 x2 x3 k0_pay1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x2048) hz2, View.readCov_unit_zero (S := S1024x2048) _ hz2]
  simp only [View.readAt_eq_ld, h3.read_unread, h4.read_unread, h5.read_unread, h6.read_unread, h8.read_unread,
    View.ld_unit_zero (S := S1x1024x2048) hz3, View.ld_unit_zero (S := S1x2048x256) hz3,
    View.ld_unit_zero (S := S1x256x2048) hz3, View.ld_unit_zero (S := S1024x2048) hz2]

/-- The last hidden tile also stores the output block: the finished accumulator, reshaped. -/
theorem out_last (c : Dev nD) (i : grid0.Coords) (a3 : Memref sig .tc .vmem S1x1024x2048 .f32) (h3 : a3.IsWhole) (a4 : Memref sig .tc .vmem S1x2048x256 .f32) (h4 : a4.IsWhole) (a5 : Memref sig .tc .vmem S1x2048x256 .f32) (h5 : a5.IsWhole) (a6 : Memref sig .tc .vmem S1x256x2048 .f32) (h6 : a6.IsWhole) (a7 : Memref sig .tc .vmem S1x1024x2048 .f32) (h7 : a7.IsWhole) (a8 : Memref sig .tc .vmem S1024x2048 .f32) (h8 : a8.IsWhole) (hc0 : ¬cond0_0 i) (hc1 : cond0_1 i)
    (x0 : Vec F S1x1024x2048 .f32) (x1 : Vec F S1x2048x256 .f32) (x2 : Vec F S1x2048x256 .f32) (x3 : Vec F S1x256x2048 .f32) (xs0 : Vec F S1024x2048 .f32) :
    out0_C_4 c i a3 h3 a4 h4 a5 h5 a6 h6 a7 h7 a8 h8 hc0 hc1 x0 x1 x2 x3 xs0 = k0_pay3 (k0_pay2 x0 x1 x2 x3 xs0) := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero (S := S1x1024x2048) hz3, View.readCov_unit_zero (S := S1024x2048) _ hz2]
  simp only [View.readAt_eq_ld, h3.read_unread, h4.read_unread, h5.read_unread, h6.read_unread, h8.read_unread,
    View.ld_unit_zero (S := S1x1024x2048) hz3, View.ld_unit_zero (S := S1x2048x256) hz3,
    View.ld_unit_zero (S := S1x256x2048) hz3, View.ld_unit_zero (S := S1024x2048) hz2]

end Cert.KernelIdeal.Pieces

end
-- ==== Proof.Payload.lean ====
/-
  One grid point's arithmetic on the extended reals, read at an index.

  With the point's blocks `xb` [1, 1024, 2048] (1024 tokens), `ub`, `vb` [1, 2048, 256] (256 hidden columns of the
  two up-projections) and `db` [1, 256, 2048] (the matching 256 rows of the down-projection), the accumulator step
  adds, at (token r, output column o),

      Σ_{k < 256} (s k · logistic (s k)) · s' k · db[0, k, o],    s k = Σ_d xb[0, r, d] · ub[0, d, k],  s' likewise with vb.

  The two matrix products are plain sums on the extended reals (a product into a zero accumulator), the changes of
  float format are the identity there, and dropping a leading unit axis reads the operand at (0, ·, ·).
-/
import proofs.«165346_j13709535609205_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen

theorem up_mm_l0 (j : S1024x256.Idx) (q : dot_S1024x2048_S2048x256_S1024x256_1_0_0_1_n_n.contr.Idx) : (dot_S1024x2048_S2048x256_S1024x256_1_0_0_1_n_n.lhsIdx j q 0).val = (j 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl
theorem up_mm_l1 (j : S1024x256.Idx) (q : dot_S1024x2048_S2048x256_S1024x256_1_0_0_1_n_n.contr.Idx) : (dot_S1024x2048_S2048x256_S1024x256_1_0_0_1_n_n.lhsIdx j q 1).val = (q ⟨0, by decide⟩).val :=
  dot_S1024x2048_S2048x256_S1024x256_1_0_0_1_n_n.lhsIdx_val_of_single rfl j q
theorem up_mm_r0 (j : S1024x256.Idx) (q : dot_S1024x2048_S2048x256_S1024x256_1_0_0_1_n_n.contr.Idx) : (dot_S1024x2048_S2048x256_S1024x256_1_0_0_1_n_n.rhsIdx j q 0).val = (q ⟨0, by decide⟩).val :=
  dot_S1024x2048_S2048x256_S1024x256_1_0_0_1_n_n.rhsIdx_val_of_single rfl j q
theorem up_mm_r1 (j : S1024x256.Idx) (q : dot_S1024x2048_S2048x256_S1024x256_1_0_0_1_n_n.contr.Idx) : (dot_S1024x2048_S2048x256_S1024x256_1_0_0_1_n_n.rhsIdx j q 1).val = (j 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- The product of a [1024, 2048] block with a [2048, 256] block, into zeros: entry (a, b) is the sum over the 2048 shared positions. -/
theorem up_mm {φ₁ φ₂ : FTy} (l : FVec Ideal S1024x2048 φ₁) (r : FVec Ideal S2048x256 φ₂) (a : Fin 1024) (b : Fin 256) :
    matmul dot_S1024x2048_S2048x256_S1024x256_1_0_0_1_n_n none l r (constant (F := Ideal) S1024x256 .f32 0x00000000#32) (ix2 a b)
      = ∑ k : Fin 2048, l (ix2 a k) * r (ix2 k b) := by
  refine (Ideal.matmul_constant_zero_apply dot_S1024x2048_S2048x256_S1024x256_1_0_0_1_n_n none l r (ix2 a b)).trans ?_
  rw [← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 a b) ((ValueIdx.contrEquiv1 dot_S1024x2048_S2048x256_S1024x256_1_0_0_1_n_n 2048 rfl rfl).symm k) = ix2 a k :=
    funext fun d => Fin.ext (by
      match d with
      | ⟨0, _⟩ => exact up_mm_l0 _ _
      | ⟨1, _⟩ => exact (up_mm_l1 _ _).trans hk)
  have er : dot_S1024x2048_S2048x256_S1024x256_1_0_0_1_n_n.rhsIdx (ix2 a b) ((ValueIdx.contrEquiv1 dot_S1024x2048_S2048x256_S1024x256_1_0_0_1_n_n 2048 rfl rfl).symm k) = ix2 k b :=
    funext fun d => Fin.ext (by
      match d with
      | ⟨0, _⟩ => exact (up_mm_r0 _ _).trans hk
      | ⟨1, _⟩ => exact up_mm_r1 _ _)
  rw [el, er]

theorem down_mm_l0 (j : S1024x2048.Idx) (q : dot_S1024x256_S256x2048_S1024x2048_1_0_0_1_n_n.contr.Idx) : (dot_S1024x256_S256x2048_S1024x2048_1_0_0_1_n_n.lhsIdx j q 0).val = (j 0).val := by
  unfold DotDims.lhsIdx
  rw [dif_neg (show ¬(0 : Fin S1024x256.rank) ∈ dot_S1024x256_S256x2048_S1024x2048_1_0_0_1_n_n.lhsBatch by decide),
    dif_pos (show (0 : Fin S1024x256.rank) ∈ dot_S1024x256_S256x2048_S1024x2048_1_0_0_1_n_n.lhsNonContracting by decide)]
  rfl
theorem down_mm_l1 (j : S1024x2048.Idx) (q : dot_S1024x256_S256x2048_S1024x2048_1_0_0_1_n_n.contr.Idx) : (dot_S1024x256_S256x2048_S1024x2048_1_0_0_1_n_n.lhsIdx j q 1).val = (q ⟨0, by decide⟩).val :=
  dot_S1024x256_S256x2048_S1024x2048_1_0_0_1_n_n.lhsIdx_val_of_single rfl j q
theorem down_mm_r0 (j : S1024x2048.Idx) (q : dot_S1024x256_S256x2048_S1024x2048_1_0_0_1_n_n.contr.Idx) : (dot_S1024x256_S256x2048_S1024x2048_1_0_0_1_n_n.rhsIdx j q 0).val = (q ⟨0, by decide⟩).val :=
  dot_S1024x256_S256x2048_S1024x2048_1_0_0_1_n_n.rhsIdx_val_of_single rfl j q
theorem down_mm_r1 (j : S1024x2048.Idx) (q : dot_S1024x256_S256x2048_S1024x2048_1_0_0_1_n_n.contr.Idx) : (dot_S1024x256_S256x2048_S1024x2048_1_0_0_1_n_n.rhsIdx j q 1).val = (j 1).val := by
  unfold DotDims.rhsIdx
  rw [dif_neg (show ¬(1 : Fin S256x2048.rank) ∈ dot_S1024x256_S256x2048_S1024x2048_1_0_0_1_n_n.rhsBatch by decide),
    dif_pos (show (1 : Fin S256x2048.rank) ∈ dot_S1024x256_S256x2048_S1024x2048_1_0_0_1_n_n.rhsNonContracting by decide)]
  rfl

/-- The product of a [1024, 256] block with a [256, 2048] block, into zeros: entry (a, b) is the sum over the 256 shared positions. -/
theorem down_mm {φ₁ φ₂ : FTy} (l : FVec Ideal S1024x256 φ₁) (r : FVec Ideal S256x2048 φ₂) (a : Fin 1024) (b : Fin 2048) :
    matmul dot_S1024x256_S256x2048_S1024x2048_1_0_0_1_n_n none l r (constant (F := Ideal) S1024x2048 .f32 0x00000000#32) (ix2 a b)
      = ∑ k : Fin 256, l (ix2 a k) * r (ix2 k b) := by
  refine (Ideal.matmul_constant_zero_apply dot_S1024x256_S256x2048_S1024x2048_1_0_0_1_n_n none l r (ix2 a b)).trans ?_
  rw [← Equiv.sum_comp (ValueIdx.contrEquiv1 dot_S1024x256_S256x2048_S1024x2048_1_0_0_1_n_n 256 rfl rfl).symm]
  refine Finset.sum_congr rfl fun k _ => ?_
  have hk := ValueIdx.contrEquiv1_symm_val dot_S1024x256_S256x2048_S1024x2048_1_0_0_1_n_n 256 rfl rfl k
  have el : dot_S1024x256_S256x2048_S1024x2048_1_0_0_1_n_n.lhsIdx (ix2 a b) ((ValueIdx.contrEquiv1 dot_S1024x256_S256x2048_S1024x2048_1_0_0_1_n_n 256 rfl rfl).symm k) = ix2 a k :=
    funext fun d => Fin.ext (by
      match d with
      | ⟨0, _⟩ => exact down_mm_l0 _ _
      | ⟨1, _⟩ => exact (down_mm_l1 _ _).trans hk)
  have er : dot_S1024x256_S256x2048_S1024x2048_1_0_0_1_n_n.rhsIdx (ix2 a b) ((ValueIdx.contrEquiv1 dot_S1024x256_S256x2048_S1024x2048_1_0_0_1_n_n 256 rfl rfl).symm k) = ix2 k b :=
    funext fun d => Fin.ext (by
      match d with
      | ⟨0, _⟩ => exact (down_mm_r0 _ _).trans hk
      | ⟨1, _⟩ => exact down_mm_r1 _ _)
  rw [el, er]

/-- A block's hidden pre-activation: token `r` of the activation block against hidden column `k` of an up-projection block. -/
def preB (xb : Vec Ideal S1x1024x2048 .f32) (wb : Vec Ideal S1x2048x256 .f32) (r : Fin 1024) (k : Fin 256) : EReal :=
  ∑ d : Fin 2048, xb (ix3 (0 : Fin 1) r d) * wb (ix3 (0 : Fin 1) d k)

/-- The first matrix product of the body, with its format changes and unit-axis casts, is the block pre-activation. -/
theorem pre_apply (xb : Vec Ideal S1x1024x2048 .f32) (wb : Vec Ideal S1x2048x256 .f32)
    (hx : S1x1024x2048.ShapeCasts S1024x2048) (hw : S1x2048x256.ShapeCasts S2048x256)
    (hb : FTy.bf16.bits < FTy.f32.bits) (r : Fin 1024) (k : Fin 256) :
    matmul dot_S1024x2048_S2048x256_S1024x256_1_0_0_1_n_n none
        (truncf .bf16 (shapeCast S1024x2048 xb hx : FVec Ideal S1024x2048 .f32) hb)
        (truncf .bf16 (shapeCast S2048x256 wb hw : FVec Ideal S2048x256 .f32) hb)
        (constant (F := Ideal) S1024x256 .f32 0x00000000#32) (ix2 r k)
      = preB xb wb r k := by
  refine (up_mm _ _ r k).trans ?_
  refine Finset.sum_congr rfl fun d _ => ?_
  show shapeCast S1024x2048 xb hx (ix2 r d) * shapeCast S2048x256 wb hw (ix2 d k) = _
  rw [shapeCast_1ab_ab_apply, shapeCast_1ab_ab_apply]

/-- Congruence of the gated product in its three factors and the weight. -/
theorem gated_congr {a b w a' b' w' : EReal} (ha : a = a') (hb : b = b') (hw : w = w') :
    (a * Ideal.logistic a * b) * w = (a' * Ideal.logistic a' * b') * w' := by
  subst ha; subst hb; subst hw; rfl

/-- THE ACCUMULATOR STEP at (token r, output column o): what was there, plus this hidden tile's contribution. -/
theorem step_apply (xb : Vec Ideal S1x1024x2048 .f32) (ub vb : Vec Ideal S1x2048x256 .f32)
    (db : Vec Ideal S1x256x2048 .f32) (acc : Vec Ideal S1024x2048 .f32) (r : Fin 1024) (o : Fin 2048) :
    k0_pay2 (F := Ideal) xb ub vb db acc (ix2 r o)
      = acc (ix2 r o) + ∑ k : Fin 256,
          (preB xb ub r k * Ideal.logistic (preB xb ub r k) * preB xb vb r k) * db (ix3 (0 : Fin 1) k o) := by
  unfold k0_pay2
  simp only [shapeCast_self]
  refine congrArg (acc (ix2 r o) + ·) ?_
  refine (down_mm _ _ r o).trans ?_
  refine Finset.sum_congr rfl fun k _ => ?_
  exact gated_congr (pre_apply xb ub _ _ _ r k) (pre_apply xb vb _ _ _ r k) (shapeCast_1ab_ab_apply db _ k o)

/-- The cleared accumulator is zero everywhere. -/
theorem zero_apply (j : S1024x2048.Idx) : k0_pay1 (F := Ideal) j = 0 := by
  unfold k0_pay1
  simp only [shapeCast_self]
  exact Ideal.ofBits_zero_f32

/-- The output block is the accumulator with a leading unit axis. -/
theorem emit_apply (acc : Vec Ideal S1024x2048 .f32) (u : Fin 1) (r : Fin 1024) (o : Fin 2048) :
    k0_pay3 (F := Ideal) acc (ix3 u r o) = acc (ix2 r o) := by
  unfold k0_pay3
  exact shapeCast_ab_1ab_apply acc _ u r o

end Cert.KernelIdeal.Payload

end
-- ==== Proof.Tile.lean ====
/-
  One grid point's accumulator step in terms of the WHOLE argument arrays. If the point's four blocks are the
  restrictions of the arrays to group `g`, token half `hf` and hidden tile `j` —

      xb[0, r, d] = x[g, 1024·hf + r, d],    ub[0, d, k] = w1[g, d, 256·j + k],
      vb[0, d, k] = w3[g, d, 256·j + k],     db[0, k, o] = w2[g, 256·j + k, o]

  — then the step adds, at (r, o), exactly the specification's tile term for (g, 1024·hf + r, o, j).
-/
import proofs.«165346_j13709535609205_2_alg».proof.Proof.Spec
import proofs.«165346_j13709535609205_2_alg».proof.Proof.Payload

noncomputable section

open Idealize.ShloMosaic Idealize.ShloMosaic.ValueIdx

namespace Cert.KernelIdeal.Tile

open Cert.KernelIdeal Cert.KernelIdeal.Gen Cert.KernelIdeal.Payload Cert.Spec

/-- A block pre-activation is the specification's, when the blocks are restrictions of the arrays. -/
theorem preB_eq (X : FVec Ideal SX .f32) (W : FVec Ideal SUp .f32)
    (xb : Vec Ideal S1x1024x2048 .f32) (wb : Vec Ideal S1x2048x256 .f32) (g : Fin 8) (hf : Fin 2) (j : Fin 22)
    (hx : ∀ (r : Fin 1024) (d : Fin 2048), xb (ix3 (0 : Fin 1) r d) = X (ix3 g (tok hf r) d))
    (hw : ∀ (d : Fin 2048) (k : Fin 256), wb (ix3 (0 : Fin 1) d k) = W (ix3 g d (hid j k)))
    (r : Fin 1024) (k : Fin 256) :
    preB xb wb r k = pre X W g (tok hf r) (hid j k) := by
  unfold preB pre
  exact Finset.sum_congr rfl fun d _ => by rw [hx r d, hw d k]

/-- THE STEP OVER THE WHOLE ARRAYS: what was there, plus the tile term. -/
theorem step_tile (X : FVec Ideal SX .f32) (W1 W3 : FVec Ideal SUp .f32) (W2 : FVec Ideal SDown .f32)
    (xb : Vec Ideal S1x1024x2048 .f32) (ub vb : Vec Ideal S1x2048x256 .f32) (db : Vec Ideal S1x256x2048 .f32)
    (g : Fin 8) (hf : Fin 2) (j : Fin 22)
    (hx : ∀ (r : Fin 1024) (d : Fin 2048), xb (ix3 (0 : Fin 1) r d) = X (ix3 g (tok hf r) d))
    (hu : ∀ (d : Fin 2048) (k : Fin 256), ub (ix3 (0 : Fin 1) d k) = W1 (ix3 g d (hid j k)))
    (hv : ∀ (d : Fin 2048) (k : Fin 256), vb (ix3 (0 : Fin 1) d k) = W3 (ix3 g d (hid j k)))
    (hd : ∀ (k : Fin 256) (o : Fin 2048), db (ix3 (0 : Fin 1) k o) = W2 (ix3 g (hid j k) o))
    (acc : Vec Ideal S1024x2048 .f32) (r : Fin 1024) (o : Fin 2048) :
    k0_pay2 (F := Ideal) xb ub vb db acc (ix2 r o) = acc (ix2 r o) + tile X W1 W2 W3 g (tok hf r) o j := by
  rw [step_apply]
  refine congrArg (acc (ix2 r o) + ·) ?_
  unfold tile gate
  exact Finset.sum_congr rfl fun k _ =>
    gated_congr (preB_eq X W1 xb ub g hf j hx hu r k) (preB_eq X W3 xb vb g hf j hx hv r k) (hd k o)

end Cert.KernelIdeal.Tile

end
-- ==== Proof.Blocks.lean ====
/-
  The grid, and what each window's block is at a point. The 352 points run in row-major order over
  (group 8) × (token half 2) × (hidden tile 22): point n has group n / 44, token half (n / 22) mod 2 and hidden
  tile n mod 22. At that point

    the activation window holds      x[g, 1024·hf + r, d]        at (0, r, d),
    the two up-projection windows    w1, w3[g, d, 256·j + k]     at (0, d, k),
    the down-projection window       w2[g, 256·j + k, o]         at (0, k, o),

  and the output window's block (g, hf, 0) is where the finished accumulator goes. The index maps are decided once
  over the grid; a block's coordinate is block index × block size + the coordinate inside the block.
-/
import proofs.«165346_j13709535609205_2_alg».proof.Proof.Spec
import proofs.«165346_j13709535609205_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.Spec

/-- The group of linear point `n`. -/
def grpN (n : ℕ) : Fin 8 := ⟨n / 44 % 8, Nat.mod_lt _ (by decide)⟩
/-- Its token half. -/
def halfN (n : ℕ) : Fin 2 := ⟨n / 22 % 2, Nat.mod_lt _ (by decide)⟩
/-- Its hidden tile. -/
def tileN (n : ℕ) : Fin 22 := ⟨n % 22, Nat.mod_lt _ (by decide)⟩

@[simp] theorem grpN_val (n : ℕ) : (grpN n).val = n / 44 % 8 := rfl
@[simp] theorem halfN_val (n : ℕ) : (halfN n).val = n / 22 % 2 := rfl
@[simp] theorem tileN_val (n : ℕ) : (tileN n).val = n % 22 := rfl

/-- The activation window's block index at point `t`: (group, token half, 0). -/
theorem idx0 : ∀ t : Fin cfg0.N, win0_0.index t (0 : Fin 3) = t.val / 44 % 8
    ∧ win0_0.index t (1 : Fin 3) = t.val / 22 % 2 ∧ win0_0.index t (2 : Fin 3) = 0 :=
  (by decide +kernel : ∀ t : Fin grid0.N, _)

/-- The first up-projection window's: (group, 0, hidden tile). -/
theorem idx1 : ∀ t : Fin cfg0.N, win0_1.index t (0 : Fin 3) = t.val / 44 % 8
    ∧ win0_1.index t (1 : Fin 3) = 0 ∧ win0_1.index t (2 : Fin 3) = t.val % 22 :=
  (by decide +kernel : ∀ t : Fin grid0.N, _)

/-- The second up-projection window's: (group, 0, hidden tile). -/
theorem idx2 : ∀ t : Fin cfg0.N, win0_2.index t (0 : Fin 3) = t.val / 44 % 8
    ∧ win0_2.index t (1 : Fin 3) = 0 ∧ win0_2.index t (2 : Fin 3) = t.val % 22 :=
  (by decide +kernel : ∀ t : Fin grid0.N, _)

/-- The down-projection window's: (group, hidden tile, 0). -/
theorem idx3 : ∀ t : Fin cfg0.N, win0_3.index t (0 : Fin 3) = t.val / 44 % 8
    ∧ win0_3.index t (1 : Fin 3) = t.val % 22 ∧ win0_3.index t (2 : Fin 3) = 0 :=
  (by decide +kernel : ∀ t : Fin grid0.N, _)

/-- The output window's: (group, token half, 0). -/
theorem idx4 : ∀ t : Fin cfg0.N, win0_4.index t (0 : Fin 3) = t.val / 44 % 8
    ∧ win0_4.index t (1 : Fin 3) = t.val / 22 % 2 ∧ win0_4.index t (2 : Fin 3) = 0 :=
  (by decide +kernel : ∀ t : Fin grid0.N, _)

variable {F : FTy → Type} [FloatOps F]
variable (m : (ℓ : Loc nD τ sig) → Buf (Elt F) ℓ)

/-- The activation block at a point: 1024 tokens of one half of one group. -/
theorem x_blk (c : Dev nD) (t : Fin cfg0.N) (r : Fin 1024) (d : Fin 2048) :
    (iblk m c 0 t : Vec F S1x1024x2048 .f32) (ix3 (0 : Fin 1) r d)
      = V m c main_arg0 (ix3 (grpN t.val) (tok (halfN t.val) r) d) := by
  obtain ⟨e0, e1, e2⟩ := idx0 t
  unfold iblk
  rw [View.read_apply]
  show V m c main_arg0 _ = V m c main_arg0 _
  refine congrArg (V m c main_arg0) ?_
  funext ax
  apply Fin.ext
  match ax with
  | ⟨0, _⟩ => show win0_0.index t (0 : Fin 3) * 1 + 1 * 0 = t.val / 44 % 8; omega
  | ⟨1, _⟩ => show win0_0.index t (1 : Fin 3) * 1024 + 1 * r.val = 1024 * (t.val / 22 % 2) + r.val; omega
  | ⟨2, _⟩ => show win0_0.index t (2 : Fin 3) * 2048 + 1 * d.val = d.val; omega

/-- The first up-projection's block at a point: 256 hidden columns of one group. -/
theorem u_blk (c : Dev nD) (t : Fin cfg0.N) (d : Fin 2048) (k : Fin 256) :
    (iblk m c 1 t : Vec F S1x2048x256 .f32) (ix3 (0 : Fin 1) d k)
      = V m c main_arg1 (ix3 (grpN t.val) d (hid (tileN t.val) k)) := by
  obtain ⟨e0, e1, e2⟩ := idx1 t
  unfold iblk
  rw [View.read_apply]
  show V m c main_arg1 _ = V m c main_arg1 _
  refine congrArg (V m c main_arg1) ?_
  funext ax
  apply Fin.ext
  match ax with
  | ⟨0, _⟩ => show win0_1.index t (0 : Fin 3) * 1 + 1 * 0 = t.val / 44 % 8; omega
  | ⟨1, _⟩ => show win0_1.index t (1 : Fin 3) * 2048 + 1 * d.val = d.val; omega
  | ⟨2, _⟩ => show win0_1.index t (2 : Fin 3) * 256 + 1 * k.val = 256 * (t.val % 22) + k.val; omega

/-- The second up-projection's block at a point: the same 256 hidden columns. -/
theorem v_blk (c : Dev nD) (t : Fin cfg0.N) (d : Fin 2048) (k : Fin 256) :
    (iblk m c 2 t : Vec F S1x2048x256 .f32) (ix3 (0 : Fin 1) d k)
      = V m c main_arg3 (ix3 (grpN t.val) d (hid (tileN t.val) k)) := by
  obtain ⟨e0, e1, e2⟩ := idx2 t
  unfold iblk
  rw [View.read_apply]
  show V m c main_arg3 _ = V m c main_arg3 _
  refine congrArg (V m c main_arg3) ?_
  funext ax
  apply Fin.ext
  match ax with
  | ⟨0, _⟩ => show win0_2.index t (0 : Fin 3) * 1 + 1 * 0 = t.val / 44 % 8; omega
  | ⟨1, _⟩ => show win0_2.index t (1 : Fin 3) * 2048 + 1 * d.val = d.val; omega
  | ⟨2, _⟩ => show win0_2.index t (2 : Fin 3) * 256 + 1 * k.val = 256 * (t.val % 22) + k.val; omega

/-- The down-projection's block at a point: the matching 256 hidden rows. -/
theorem d_blk (c : Dev nD) (t : Fin cfg0.N) (k : Fin 256) (o : Fin 2048) :
    (iblk m c 3 t : Vec F S1x256x2048 .f32) (ix3 (0 : Fin 1) k o)
      = V m c main_arg2 (ix3 (grpN t.val) (hid (tileN t.val) k) o) := by
  obtain ⟨e0, e1, e2⟩ := idx3 t
  unfold iblk
  rw [View.read_apply]
  show V m c main_arg2 _ = V m c main_arg2 _
  refine congrArg (V m c main_arg2) ?_
  funext ax
  apply Fin.ext
  match ax with
  | ⟨0, _⟩ => show win0_3.index t (0 : Fin 3) * 1 + 1 * 0 = t.val / 44 % 8; omega
  | ⟨1, _⟩ => show win0_3.index t (1 : Fin 3) * 256 + 1 * k.val = 256 * (t.val % 22) + k.val; omega
  | ⟨2, _⟩ => show win0_3.index t (2 : Fin 3) * 2048 + 1 * o.val = o.val; omega

/-- Where the output block's entry (0, r, o) lands in the result array. -/
theorem out_emb (t : Fin cfg0.N) (u : Fin 1) (r : Fin 1024) (o : Fin 2048) :
    ((cfg0.win 4).blk t).view.emb (ix3 u r o) = ix3 (grpN t.val) (tok (halfN t.val) r) o := by
  obtain ⟨e0, e1, e2⟩ := idx4 t
  have hu : u.val = 0 := by omega
  funext ax
  apply Fin.ext
  match ax with
  | ⟨0, _⟩ => show win0_4.index t (0 : Fin 3) * 1 + 1 * u.val = t.val / 44 % 8; omega
  | ⟨1, _⟩ => show win0_4.index t (1 : Fin 3) * 1024 + 1 * r.val = 1024 * (t.val / 22 % 2) + r.val; omega
  | ⟨2, _⟩ => show win0_4.index t (2 : Fin 3) * 2048 + 1 * o.val = o.val; omega

end Cert.KernelIdeal.Blocks

end
-- ==== Proof.Fold.lean ====
/-
  The accumulator over one run of 22 consecutive points (the 22 hidden tiles of one group and token half).

  Point n adds its ADDEND — the specification's tile term for (group of n, token, output column, hidden tile of n) —
  to what the point before left; the run's first point (n ≡ 0 mod 22) starts from zero instead. So after the
  run's last point the accumulator holds 0 plus the sum of the 22 tile terms.
-/
import proofs.«165346_j13709535609205_2_alg».proof.Proof.Spec
import proofs.«165346_j13709535609205_2_alg».proof.Proof.Pieces
import proofs.«165346_j13709535609205_2_alg».proof.Proof.Tile
import proofs.«165346_j13709535609205_2_alg».proof.Proof.Blocks
import proofs.«165346_j13709535609205_2_alg».proof.Proof.Gen.KernelIdeal.Value

noncomputable section

open Idealize.ShloMosaic Idealize.ShloMosaic.TcCoe Idealize.SL.Sem Idealize.ShloMosaic.ValueIdx

namespace Cert.KernelIdeal.Fold

open Cert.KernelIdeal Cert.KernelIdeal.Gen Cert.Spec Cert.KernelIdeal.Blocks

variable (m : (ℓ : Loc nD τ sig) → Buf (Elt Ideal) ℓ)

/-- The four argument arrays on core `c`. -/
abbrev argX (c : Dev nD) : FVec Ideal SX .f32 := m ((c : Thread nD τ).loc main_arg0)
abbrev argW1 (c : Dev nD) : FVec Ideal SUp .f32 := m ((c : Thread nD τ).loc main_arg1)
abbrev argW2 (c : Dev nD) : FVec Ideal SDown .f32 := m ((c : Thread nD τ).loc main_arg2)
abbrev argW3 (c : Dev nD) : FVec Ideal SUp .f32 := m ((c : Thread nD τ).loc main_arg3)

/-- Point `n`'s addend at accumulator entry (token r, output column o). -/
def addend (c : Dev nD) (n : ℕ) : S1024x2048.Idx → EReal := fun y =>
  tile (argX m c) (argW1 m c) (argW2 m c) (argW3 m c) (grpN n) (tok (halfN n) (y 0)) (y 1) (tileN n)

/-- The body's step at point `t`, on the point's own blocks: the accumulator plus the point's addend. -/
theorem step_at (c : Dev nD) (t : Fin cfg0.N) (acc : Vec Ideal S1024x2048 .f32) (y : S1024x2048.Idx) :
    k0_pay2 (F := Ideal) (iblk m c 0 t) (iblk m c 1 t) (iblk m c 2 t) (iblk m c 3 t) acc y
      = acc y + addend m c t.val y := by
  obtain ⟨r, o, rfl⟩ : ∃ (r : Fin 1024) (o : Fin 2048), y = ix2 r o := ⟨y 0, y 1, eq_ix2 y⟩
  exact Tile.step_tile (argX m c) (argW1 m c) (argW3 m c) (argW2 m c)
    (iblk m c 0 t) (iblk m c 1 t) (iblk m c 2 t) (iblk m c 3 t) (grpN t.val) (halfN t.val) (tileN t.val)
    (x_blk m c t) (u_blk m c t) (v_blk m c t) (d_blk m c t) acc r o

/-- At a run's first point the accumulator restarts: zero plus the addend, whatever was there. -/
theorem sc_first (c : Dev nD) (n : ℕ) (hb : n < cfg0.N) (h0 : n % 22 = 0) (acc : Vec Ideal S1024x2048 .f32)
    (y : S1024x2048.Idx) : Value.scAt0_0 m c n hb acc y = 0 + addend m c n y := by
  have h1 : ¬n % 22 = 21 := by omega
  unfold Value.scAt0_0
  rw [dif_pos h0, dif_neg h1, Pieces.scratch_first, step_at m c ⟨n, hb⟩, Payload.zero_apply]

/-- At every later point it grows by the addend. -/
theorem sc_later (c : Dev nD) (n : ℕ) (hb : n < cfg0.N) (h0 : ¬n % 22 = 0) (acc : Vec Ideal S1024x2048 .f32)
    (y : S1024x2048.Idx) : Value.scAt0_0 m c n hb acc y = acc y + addend m c n y := by
  unfold Value.scAt0_0
  rw [dif_neg h0]
  by_cases h1 : n % 22 = 21
  · rw [dif_pos h1, Pieces.scratch_last]; exact step_at m c ⟨n, hb⟩ acc y
  · rw [dif_neg h1, Pieces.scratch_mid]; exact step_at m c ⟨n, hb⟩ acc y

/-- AFTER A RUN'S LAST POINT the accumulator is zero plus the run's 22 addends. -/
theorem sc_run (c : Dev nD) (t : Fin cfg0.N) (h21 : t.val % 22 = 21) (y : S1024x2048.Idx) :
    (outsAt0 m c t.val t.isLt).2 y = 0 + ∑ s ∈ Finset.range 22, addend m c (22 * (t.val / 22) + s) y := by
  have hN : t.val < 352 := lt_of_lt_of_eq t.isLt (show cfg0.N = 352 from N_0)
  rw [Value.soutsAt0_0_eq m c t]
  have key := Pipeline.accAt_add_apply (N := cfg0.N)
    (fun n h => Value.scAt0_0 m c n h (VS0_0.read (Elt Ideal) VS0_0.junk)) (Value.scAt0_0 m c)
    (fun _ => (0 : EReal)) (addend m c) (22 * (t.val / 22)) 21
    (fun h i => sc_first m c _ h (by omega) _ i)
    (fun n h acc i hlo hhi => sc_later m c n h (by omega) acc i)
    (t.val % 22) (by omega) (by have := Nat.div_add_mod t.val 22; have hN' : cfg0.N = 352 := N_0; omega) y
  rw [key, h21]

end Cert.KernelIdeal.Fold

end
-- ==== Proof.KernelValue.lean ====
/-
  The kernel's result array. The output block is written back only after the last hidden tile of a run (points
  ≡ 21 mod 22); what is written there is the finished accumulator, zero plus the run's 22 tile terms, which is the
  specification G on the block's 1024 tokens of one group. The 16 written blocks (8 groups × 2 token halves)
  tile the [8, 2048, 2048] result, so the array ends holding G.
-/
import proofs.«165346_j13709535609205_2_alg».proof.Proof.Fold

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.Spec Cert.KernelIdeal.Blocks Cert.KernelIdeal.Fold

variable (m : (ℓ : Loc nD τ sig) → Buf (Elt Ideal) ℓ) (ρ : Dev nD → PrngReg)

/-- What the result array holds after the run, on core `c`. -/
abbrev result (c : Dev nD) : FVec Ideal SX .f32 := G (argX m c) (argW1 m c) (argW2 m c) (argW3 m c)

/-- The 22 addends of the run that point `n` lies in sum to the specification at that run's group and token half:
    every point of the run has the run's group and half, and its own hidden tile. -/
theorem run_sum (c : Dev nD) (n : ℕ) (r : Fin 1024) (o : Fin 2048) :
    ∑ s ∈ Finset.range 22, addend m c (22 * (n / 22) + s) (ix2 r o)
      = result m c (ix3 (grpN n) (tok (halfN n) r) o) := by
  refine Eq.trans ?_ (G_eq_tiles (argX m c) (argW1 m c) (argW2 m c) (argW3 m c) _).symm
  rw [Finset.sum_range]
  refine Finset.sum_congr rfl fun j _ => ?_
  have hj := j.isLt
  have eg : grpN (22 * (n / 22) + j.val) = grpN n := Fin.ext (by simp only [grpN_val]; omega)
  have eh : halfN (22 * (n / 22) + j.val) = halfN n := Fin.ext (by simp only [halfN_val]; omega)
  have et : tileN (22 * (n / 22) + j.val) = j := Fin.ext (by simp only [tileN_val]; omega)
  show tile (argX m c) (argW1 m c) (argW2 m c) (argW3 m c) (grpN (22 * (n / 22) + j.val))
      (tok (halfN (22 * (n / 22) + j.val)) r) o (tileN (22 * (n / 22) + j.val))
    = tile (argX m c) (argW1 m c) (argW2 m c) (argW3 m c) (grpN n) (tok (halfN n) r) o j
  rw [eg, eh, et]

/-- WHAT A WRITING POINT WRITES BACK is its block of the specification. -/
theorem flushed_eq (c : Dev nD) (t : Fin cfg0.N) (hf : (cfg0.win 4).flush t = true) :
    (dats m 0 c).flushed 4 t = ((cfg0.win 4).blk t).view.read (Elt Ideal) (result m c) := by
  have h21 : t.val % 22 = 21 := (flush0_4 t).mp hf
  have h0 : ¬t.val % 22 = 0 := by omega
  -- the scratch after this point, as the step on what the point before left
  have hs : (outsAt0 m c t.val t.isLt).2
      = k0_pay2 (F := Ideal) (iblk m c 0 t) (iblk m c 1 t) (iblk m c 2 t) (iblk m c 3 t)
          (outsAt0 m c (t.val - 1) (Nat.lt_of_le_of_lt (Nat.sub_le _ _) t.isLt)).2 := by
    rw [outsAt0_C m c t h0 h21]
    dsimp only
    rw [Pieces.scratch_last]
  rw [Value.flushed4_C m c t h0 h21, Pieces.out_last, ← hs]
  funext y
  obtain ⟨u, r, o, rfl⟩ : ∃ (u : Fin 1) (r : Fin 1024) (o : Fin 2048), y = ix3 u r o :=
    ⟨y 0, y 1, y 2, eq_ix3 (n0 := 1) (n1 := 1024) (n2 := 2048) y⟩
  have hx : (cfg0.win 4).xinj (grid0.coords t) (ix3 u r o) = ix3 u r o := funext fun a => Fin.ext rfl
  rw [View.read_apply]
  show k0_pay3 (F := Ideal) (outsAt0 m c t.val t.isLt).2 ((cfg0.win 4).xinj (grid0.coords t) (ix3 u r o))
    = result m c (((cfg0.win 4).blk t).view.emb (ix3 u r o))
  rw [out_emb t u r o, hx, Payload.emit_apply, sc_run m c t h21, zero_add, run_sum]

/-- An index of the result is in point `t`'s block iff each coordinate is in the block's range on its axis. -/
theorem mem_blk (t : Fin cfg0.N) (i : S8x2048x2048.Idx) :
    i ∈ ((cfg0.win 4).blk t).view.set ↔ ∀ a : Fin 3, win0_4.index t a * S1x1024x2048.size a ≤ (i a).val
      ∧ (i a).val < win0_4.index t a * S1x1024x2048.size a + S1x1024x2048.size a := by
  show i ∈ ((View.whole main_v0).slice (win0_4.rect t)).set ↔ _
  rw [View.set_slice_whole, Rect.mem_set_unit]
  exact Iff.rfl

/-- Every index of the result is in the block of a writing point: the last point of its group's and half's run. -/
theorem cover (i : S8x2048x2048.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 2048 := (i 2).isLt
  have hN : cfg0.N = 352 := N_0
  have hlt : 44 * (i 0).val + 22 * ((i 1).val / 1024) + 21 < cfg0.N := by omega
  obtain ⟨e0, e1, e2⟩ := idx4 ⟨44 * (i 0).val + 22 * ((i 1).val / 1024) + 21, hlt⟩
  have e0' : win0_4.index ⟨44 * (i 0).val + 22 * ((i 1).val / 1024) + 21, hlt⟩ (0 : Fin 3)
      = (44 * (i 0).val + 22 * ((i 1).val / 1024) + 21) / 44 % 8 := e0
  have e1' : win0_4.index ⟨44 * (i 0).val + 22 * ((i 1).val / 1024) + 21, hlt⟩ (1 : Fin 3)
      = (44 * (i 0).val + 22 * ((i 1).val / 1024) + 21) / 22 % 2 := e1
  refine ⟨⟨44 * (i 0).val + 22 * ((i 1).val / 1024) + 21, hlt⟩,
    (flush0_4 _).mpr (by show (44 * (i 0).val + 22 * ((i 1).val / 1024) + 21) % 22 = 21; omega), ?_⟩
  rw [mem_blk]
  intro a
  match a with
  | ⟨0, _⟩ =>
    show win0_4.index _ (0 : Fin 3) * 1 ≤ (i 0).val ∧ (i 0).val < win0_4.index _ (0 : Fin 3) * 1 + 1
    rw [e0']; omega
  | ⟨1, _⟩ =>
    show win0_4.index _ (1 : Fin 3) * 1024 ≤ (i 1).val ∧ (i 1).val < win0_4.index _ (1 : Fin 3) * 1024 + 1024
    rw [e1']; omega
  | ⟨2, _⟩ =>
    show win0_4.index _ (2 : Fin 3) * 2048 ≤ (i 2).val ∧ (i 2).val < win0_4.index _ (2 : Fin 3) * 2048 + 2048
    rw [e2]; omega

/-- THE RESULT ARRAY after the run is the specification of the argument arrays. -/
theorem final (c : Dev nD) : (dats m 0 c).arrAt 4 cfg0.N = result m c :=
  (dats m 0 c).arrAt_eq_of_cover 4 (result m c) (flushed_eq m c) cover

/-- The kernel's run, read: the result at the specification, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KV

end
-- ==== Proof.RefIsSpec.lean ====
/-
  The reference computes the specification. Read one operation at a time on the extended reals:
  the two batched contractions over the model axis are the hidden pre-activations; 1 / (1 + exp (−s)) with the
  literal 1.0 is the logistic function; the products are the gate; the last batched contraction, over the hidden axis,
  is the result G.
-/
import proofs.«165346_j13709535609205_2_alg».proof.Proof.Spec
import proofs.«165346_j13709535609205_2_alg».proof.Proof.Gen.ReferenceIdeal.Read

noncomputable section

open Idealize.ShloMosaic Idealize.ShloMosaic.ValueIdx

namespace Cert.ReferenceIdeal.RefSpec

open Cert.ReferenceIdeal Cert.ReferenceIdeal.Read Cert.Spec

/-- The float literal 1.0 is the real number 1. -/
theorem one_f32 : Ideal.ofBits .f32 0x3F800000#32 = 1 := by
  simp [Ideal.ofBits, Ideal.ieee, -EReal.coe_mul]; norm_num

/-- The first contraction is the first branch's pre-activation. -/
theorem v0_eq (x0 : FVec Ideal SX .f32) (x1 : FVec Ideal SUp .f32) (g : Fin 8) (t : Fin 2048) (h : Fin 5632) :
    val_main_v0 (F := Ideal) x0 x1 (ix3 g t h) = pre x0 x1 g t h := by
  rw [val_main_v0_apply]
  unfold pre
  refine Finset.sum_congr rfl fun d _ => ?_
  have el : lidx_main_v0 (ix3 g t h) d = ix3 g t d :=
    funext fun a => Fin.ext (by match a with | ⟨0, _⟩ => rfl | ⟨1, _⟩ => rfl | ⟨2, _⟩ => rfl)
  have er : ridx_main_v0 (ix3 g t h) d = ix3 g d h :=
    funext fun a => Fin.ext (by match a with | ⟨0, _⟩ => rfl | ⟨1, _⟩ => rfl | ⟨2, _⟩ => rfl)
  rw [el, er]

/-- The second contraction is the second branch's. -/
theorem v1_eq (x0 : FVec Ideal SX .f32) (x3 : FVec Ideal SUp .f32) (g : Fin 8) (t : Fin 2048) (h : Fin 5632) :
    val_main_v1 (F := Ideal) x0 x3 (ix3 g t h) = pre x0 x3 g t h := by
  rw [val_main_v1_apply]
  unfold pre
  refine Finset.sum_congr rfl fun d _ => ?_
  have el : lidx_main_v1 (ix3 g t h) d = ix3 g t d :=
    funext fun a => Fin.ext (by match a with | ⟨0, _⟩ => rfl | ⟨1, _⟩ => rfl | ⟨2, _⟩ => rfl)
  have er : ridx_main_v1 (ix3 g t h) d = ix3 g d h :=
    funext fun a => Fin.ext (by match a with | ⟨0, _⟩ => rfl | ⟨1, _⟩ => rfl | ⟨2, _⟩ => rfl)
  rw [el, er]

/-- 1 / (1 + exp (−s)), spelt with negate, exponential, add and divide, is the logistic function of s. -/
theorem v5_eq (x0 : FVec Ideal SX .f32) (x1 : FVec Ideal SUp .f32) (i : SUp.Idx) :
    val_main_call0_v5 (F := Ideal) x0 x1 i = Ideal.logistic (val_main_v0 (F := Ideal) x0 x1 i) := by
  rw [val_main_call0_v5_apply, val_main_call0_v4_apply, val_main_call0_cst_0_apply, val_main_call0_v3_apply,
    val_main_call0_v2_apply, val_main_call0_cst_apply, val_main_call0_v1_apply, val_main_call0_v0_apply]
  show FloatOps.hostDivf (Ideal.ofBits .f32 0x3F800000#32) (FloatOps.addf (Ideal.ofBits .f32 0x3F800000#32)
    (FloatOps.hostUnary .exp (FloatOps.hostNegf (val_main_v0 (F := Ideal) x0 x1 i)))) = _
  rw [one_f32]
  rfl

/-- The elementwise stage is the gate. -/
theorem v3_eq (x0 : FVec Ideal SX .f32) (x1 x3 : FVec Ideal SUp .f32) (g : Fin 8) (t : Fin 2048) (h : Fin 5632) :
    val_main_v3 (F := Ideal) x0 x1 x3 (ix3 g t h) = gate x0 x1 x3 g t h := by
  rw [val_main_v3_apply, val_main_v2_apply, v5_eq, v0_eq, v1_eq]
  rfl

/-- THE REFERENCE IS THE SPECIFICATION. -/
theorem ref_eq (x0 : FVec Ideal SX .f32) (x1 : FVec Ideal SUp .f32) (x2 : FVec Ideal SDown .f32)
    (x3 : FVec Ideal SUp .f32) : val_main_v4 (F := Ideal) x0 x1 x2 x3 = G x0 x1 x2 x3 := by
  funext i
  obtain ⟨g, t, o, rfl⟩ : ∃ (g : Fin 8) (t : Fin 2048) (o : Fin 2048), i = ix3 g t o := ⟨i 0, i 1, i 2, eq_ix3 i⟩
  rw [val_main_v4_apply]
  show _ = ∑ h : Fin 5632, gate x0 x1 x3 g t h * x2 (ix3 g h o)
  refine Finset.sum_congr rfl fun h _ => ?_
  have el : lidx_main_v4 (ix3 g t o) h = ix3 g t h :=
    funext fun a => Fin.ext (by match a with | ⟨0, _⟩ => rfl | ⟨1, _⟩ => rfl | ⟨2, _⟩ => rfl)
  have er : ridx_main_v4 (ix3 g t o) h = ix3 g h o :=
    funext fun a => Fin.ext (by match a with | ⟨0, _⟩ => rfl | ⟨1, _⟩ => rfl | ⟨2, _⟩ => rfl)
  rw [el, er, v3_eq]

end Cert.ReferenceIdeal.RefSpec

end
-- ==== Proof.lean ====
/-
  A gated feed-forward block, tiled, against its plain definition.

  For 8 groups of 2048 tokens of width 2048 and a hidden width of 5632 the block is

      out[g, t, o] = Σ_h  silu(s1[g, t, h]) · s3[g, t, h] · w2[g, h, o],
      s1 = Σ_d x[g, t, d] · w1[g, d, h],   s3 = Σ_d x[g, t, d] · w3[g, d, h],   silu(s) = s · logistic(s).

  The reference computes it with three batched contractions and spells the logistic function as 1 / (1 + exp(−s)).
  The kernel walks a grid of 8 × 2 × 22 points — group, half of the tokens, tile of 256 hidden units — and keeps a
  [1024, 2048] accumulator across the 22 hidden tiles of a run: cleared at the first, increased at each by that tile's
  partial sum Σ_{h in tile}, written out after the last.

  On the extended reals the two agree: a change of float format is the identity, a matrix product into zeros is the
  plain sum, the accumulator after a run is 0 plus the 22 partial sums, and a sum over the hidden axis is the sum of
  its 22 tile sums — which uses only that addition is commutative and associative, so the inputs' finiteness is never
  needed. The kernel's idealization rewrote nothing, and the three frames are the generated runs.
-/
import proofs.«165346_j13709535609205_2_alg».proof.Defs
import proofs.«165346_j13709535609205_2_alg».proof.Proof.Gen.Kernel
import proofs.«165346_j13709535609205_2_alg».proof.Proof.Gen.Kernel.Frame
import proofs.«165346_j13709535609205_2_alg».proof.Proof.Gen.KernelIdeal
import proofs.«165346_j13709535609205_2_alg».proof.Proof.Gen.KernelIdeal.Frame
import proofs.«165346_j13709535609205_2_alg».proof.Proof.Gen.KernelIdeal.Value
import proofs.«165346_j13709535609205_2_alg».proof.Proof.Gen.ReferenceIdeal
import proofs.«165346_j13709535609205_2_alg».proof.Proof.Gen.ReferenceIdeal.Run
import proofs.«165346_j13709535609205_2_alg».proof.Proof.Gen.ReferenceIdeal.Read
import proofs.«165346_j13709535609205_2_alg».proof.Proof.Gen.Pre_finite_inputs
import proofs.«165346_j13709535609205_2_alg».proof.Proof.KernelValue
import proofs.«165346_j13709535609205_2_alg».proof.Proof.RefIsSpec
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, both programs end with the block's value G of those arguments:
    the kernel by its accumulated run, the reference operation by operation. -/
theorem algebraic : Cert.algebraic_KernelIdeal_ReferenceIdeal := by
  intro m ρ m' ρ' _ hagree
  refine ⟨fun c => Cert.KernelIdeal.KV.result m c, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v4_eq _ _ _ _).trans ?_
  rw [Cert.ReferenceIdeal.RefSpec.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
